-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S2x128x128 : Shape := ⟨3, ![2, 128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S2x128x128 : S_.BroadcastsInDim S2x128x128 (![] : Fin 0 → Fin S2x128x128.rank)
  reducesTo_S2x128x128_S_d0_1_2 : S2x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S2x10000x10000 .f32) (main_arg2 : FVec F S2x128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S2x10000x10000 : Shape := ⟨3, ![2, 10000, 10000]⟩
abbrev S2x128x128 : Shape := ⟨3, ![2, 128, 128]⟩
abbrev S128 : Shape := ⟨1, ![128]⟩
abbrev S1x128 : Shape := ⟨2, ![1, 128]⟩
abbrev S2x80x10000 : Shape := ⟨3, ![2, 80, 10000]⟩
abbrev S80x128 : Shape := ⟨2, ![80, 128]⟩
abbrev S1x80x10000 : Shape := ⟨3, ![1, 80, 10000]⟩
abbrev S80x10000 : Shape := ⟨2, ![80, 10000]⟩
abbrev S1x128x128 : Shape := ⟨3, ![1, 128, 128]⟩
abbrev S128x128 : Shape := ⟨2, ![128, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S2x128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S2x80x10000, .f32⟩
  | .local _ .vmem, ⟨1, _⟩ => ⟨S2x80x10000, .f32⟩
  | .local _ .vmem, ⟨2, _⟩ => ⟨S10000x128, .f32⟩
  | .local _ .vmem, ⟨3, _⟩ => ⟨S2x128x128, .f32⟩
  | .local _ .vmem, ⟨4, _⟩ => ⟨S1x128, .f32⟩
  | .local _ .vmem, ⟨5, _⟩ => ⟨S80x128, .f32⟩
  | .local _ .vmem, ⟨6, _⟩ => ⟨S80x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x80x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S80x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S2x80x10000_S1x80x10000_0_0_0 : ∀ a, (![0, 0, 0] : Fin 3 → Nat) a + S1x80x10000.size a ≤ S2x80x10000.size a
  h_S1x80x10000 : 0 < S1x80x10000.numel
  shapeCasts_S1x80x10000_S80x10000 : S1x80x10000.ShapeCasts S80x10000
  inb_S10000x128_S10000x128_0_0 : ∀ a, (![0, 0] : Fin 2 → Nat) a + S10000x128.size a ≤ S10000x128.size a
  h_S10000x128 : 0 < S10000x128.numel
  inb_S2x80x10000_S1x80x10000_1_0_0 : ∀ a, (![1, 0, 0] : Fin 3 → Nat) a + S1x80x10000.size a ≤ S2x80x10000.size a
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  inb_S2x128x128_S1x128x128_1_0_0 : ∀ a, (![1, 0, 0] : Fin 3 → Nat) a + S1x128x128.size a ≤ S2x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S80x128 : S1x128.Broadcasts S80x128
  inb_S80x128_S80x128_0_0 : ∀ a, (![0, 0] : Fin 2 → Nat) a + S80x128.size a ≤ S80x128.size a
  h_S80x128 : 0 < S80x128.numel
  dot_S80x10000_S10000x128_S80x128_1_0_0_1_n_n_wf : DotDims.WF S80x10000 S10000x128 S80x128 [1] [0] [0] [1] [] []
  dot_S80x128_S128x128_S80x128_1_0_0_1_n_n_wf : DotDims.WF S80x128 S128x128 S80x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x80x10000.size a ≤ S2x10000x10000.size a
  hwx0_0 : ∀ i : grid0.Coords, EltTy.bits .f32 = 32 ∨ (Rect.block (s := S2x10000x10000) S2x80x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128x128.size a ≤ S2x128x128.size a
  hwx0_2 : ∀ i : grid0.Coords, EltTy.bits .f32 = 32 ∨ (Rect.block (s := S2x128x128) S2x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x128.size a ≤ S10000x128.size a
  hwx0_4 : ∀ i : grid0.Coords, EltTy.bits .f32 = 32 ∨ (Rect.block (s := S10000x128) S80x128.size (cc0_transform_4 i) (hinb0_4 i)).WholeWords (EltTy.packing .f32)

variable [Facts₀]

def dot_S80x10000_S10000x128_S80x128_1_0_0_1_n_n : DotDims S80x10000 S10000x128 S80x128 where
  lhsContracting := [1]
  rhsContracting := [0]
  lhsNonContracting := [0]
  rhsNonContracting := [1]
  lhsBatch := []
  rhsBatch := []
  wf := dot_S80x10000_S10000x128_S80x128_1_0_0_1_n_n_wf
def dot_S80x128_S128x128_S80x128_1_0_0_1_n_n : DotDims S80x128 S128x128 S80x128 where
  lhsContracting := [1]
  rhsContracting := [0]
  lhsNonContracting := [0]
  rhsNonContracting := [1]
  lhsBatch := []
  rhsBatch := []
  wf := dot_S80x128_S128x128_S80x128_1_0_0_1_n_n_wf

abbrev win0_0 : Pipeline.Window sig grid0 :=
  Pipeline.Window.ofSpec (Memref.whole main_arg1) S2x80x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S80x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S2x128x128 : Shape := ⟨3, ![2, 128, 128]⟩
abbrev S128 : Shape := ⟨1, ![128]⟩
abbrev S1x10000x10000 : Shape := ⟨3, ![1, 10000, 10000]⟩
abbrev S10000x10000 : Shape := ⟨2, ![10000, 10000]⟩
abbrev S1x128x128 : Shape := ⟨3, ![1, 128, 128]⟩
abbrev S128x128 : Shape := ⟨2, ![128, 128]⟩
abbrev S1x10000x128 : Shape := ⟨3, ![1, 10000, 128]⟩
abbrev S2x10000x128 : Shape := ⟨3, ![2, 10000, 128]⟩
abbrev S_ : Shape := ⟨0, ![]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S2x128x128, .f32⟩
  | .hbm, ⟨3, _⟩ => ⟨S128, .f32⟩
  | .hbm, ⟨4, _⟩ => ⟨S1x10000x10000, .f32⟩
  | .hbm, ⟨5, _⟩ => ⟨S10000x10000, .f32⟩
  | .hbm, ⟨6, _⟩ => ⟨S10000x128, .f32⟩
  | .hbm, ⟨7, _⟩ => ⟨S1x128x128, .f32⟩
  | .hbm, ⟨8, _⟩ => ⟨S128x128, .f32⟩
  | .hbm, ⟨9, _⟩ => ⟨S10000x128, .f32⟩
  | .hbm, ⟨10, _⟩ => ⟨S1x10000x10000, .f32⟩
  | .hbm, ⟨11, _⟩ => ⟨S10000x10000, .f32⟩
  | .hbm, ⟨12, _⟩ => ⟨S10000x128, .f32⟩
  | .hbm, ⟨13, _⟩ => ⟨S1x128x128, .f32⟩
  | .hbm, ⟨14, _⟩ => ⟨S128x128, .f32⟩
  | .hbm, ⟨15, _⟩ => ⟨S10000x128, .f32⟩
  | .hbm, ⟨16, _⟩ => ⟨S1x10000x128, .f32⟩
  | .hbm, ⟨17, _⟩ => ⟨S1x10000x128, .f32⟩
  | .hbm, ⟨18, _⟩ => ⟨S2x10000x128, .f32⟩
  | .hbm, ⟨19, _⟩ => ⟨S_, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000x128, .f32⟩
  | .hbm, ⟨26, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_cst : Ref sig .tc := ⟨.hbm, 24, rfl⟩
abbrev main_call0_v0 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  slices_S2x128x128_S1x128x128_0_0_0 : S2x128x128.Slices ![0, 0, 0] S1x128x128
  shapeCasts_S1x128x128_S128x128 : S1x128x128.ShapeCasts S128x128
  slices_S2x10000x10000_S1x10000x10000_1_0_0 : S2x10000x10000.Slices ![1, 0, 0] S1x10000x10000
  slices_S2x128x128_S1x128x128_1_0_0 : S2x128x128.Slices ![1, 0, 0] S1x128x128
  bcast_S10000x128_S1x10000x128_1_2 : S10000x128.BroadcastsInDim S1x10000x128 (![1, 2] : Fin 2 → Fin S1x10000x128.rank)
  concatenates_S1x10000x128_S1x10000x128_S2x10000x128_d0 : Shape.Concatenates [S1x10000x128, S1x10000x128] S2x10000x128 0
  reducesTo_S2x10000x128_S10000x128_d0 : S2x10000x128.ReducesTo [0] S10000x128
  h_S_ : 0 < S_.numel
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The relational graph-convolution layer as one function of its four arguments, entry by entry, on the extended reals.

  For node features X : [10000, 128], two adjacency matrices A : [2, 10000, 10000], two weight matrices
  W : [2, 128, 128] and a bias b : [128], the layer's output at node p and output feature o is

      max ( Σ_r Σ_j ( Σ_k A[r, p, k] · X[k, j] ) · W[r, j, o]  +  b[o] ,  0 )          (r over the two relations),

  that is relu ( Σ_r (A[r] · X) · W[r] + b ). `relTerm` is one relation's summand. It is stated for an adjacency
  operand of any number M of rows, because the same expression is read once over the whole array (M = 10000) and once
  over a block of 80 rows of it.
-/
import Idealize.ShloMosaic.PureOps.Ideal
import Idealize.ShloMosaic.Lib.ValueIdx

noncomputable section

namespace Cert.Rgcn

open Idealize.ShloMosaic Idealize.ShloMosaic.ValueIdx

/-- Relation r's contribution to row p, output feature o: the row of A[r] · X at p, times W[r], at o. -/
def relTerm {M : Nat} (A : (⟨3, ![2, M, 10000]⟩ : Shape).Idx → EReal) (X : (⟨2, ![10000, 128]⟩ : Shape).Idx → EReal)
    (W : (⟨3, ![2, 128, 128]⟩ : Shape).Idx → EReal) (r : Fin 2) (p : Fin M) (o : Fin 128) : EReal :=
  ∑ j : Fin 128, (∑ k : Fin 10000, A (ix3 r p k) * X (ix2 k j)) * W (ix3 r j o)

/-- The layer's output at row p and output feature o from a bias value β: the two relations' terms, the bias, relu. -/
def entry {M : Nat} (A : (⟨3, ![2, M, 10000]⟩ : Shape).Idx → EReal) (X : (⟨2, ![10000, 128]⟩ : Shape).Idx → EReal)
    (W : (⟨3, ![2, 128, 128]⟩ : Shape).Idx → EReal) (β : EReal) (p : Fin M) (o : Fin 128) : EReal :=
  max (relTerm A X W 0 p o + relTerm A X W 1 p o + β) 0

/-- The whole output array. -/
def layer (X : (⟨2, ![10000, 128]⟩ : Shape).Idx → EReal) (A : (⟨3, ![2, 10000, 10000]⟩ : Shape).Idx → EReal)
    (W : (⟨3, ![2, 128, 128]⟩ : Shape).Idx → EReal) (b : (⟨1, ![128]⟩ : Shape).Idx → EReal) :
    (⟨2, ![10000, 128]⟩ : Shape).Idx → EReal :=
  fun i => entry A X W (b (ix1 (i 1))) (i 0) (i 1)

/-- The layer at an index given by its coordinates. -/
theorem layer_ix2 (X : (⟨2, ![10000, 128]⟩ : Shape).Idx → EReal) (A : (⟨3, ![2, 10000, 10000]⟩ : Shape).Idx → EReal)
    (W : (⟨3, ![2, 128, 128]⟩ : Shape).Idx → EReal) (b : (⟨1, ![128]⟩ : Shape).Idx → EReal) (p : Fin 10000) (o : Fin 128) :
    layer X A W b (ix2 p o) = entry A X W (b (ix1 o)) p o := rfl

/-- A block of rows of the adjacency operand: if the block's row p' is the array's row p, the entries agree. -/
theorem entry_of_rows {M : Nat} (A : (⟨3, ![2, 10000, 10000]⟩ : Shape).Idx → EReal) (B : (⟨3, ![2, M, 10000]⟩ : Shape).Idx → EReal)
    (X : (⟨2, ![10000, 128]⟩ : Shape).Idx → EReal) (W : (⟨3, ![2, 128, 128]⟩ : Shape).Idx → EReal) (β : EReal)
    (p' : Fin M) (p : Fin 10000) (o : Fin 128) (hrow : ∀ (r : Fin 2) (k : Fin 10000), B (ix3 r p' k) = A (ix3 r p k)) :
    entry B X W β p' o = entry A X W β p o := by
  unfold entry relTerm
  simp only [hrow]

end Cert.Rgcn

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibStackTwo.lean ====
/-
  Two arrays of one shape [1, a, b] joined along the leading axis into [2, a, b] — what stacking two matrices
  lowers to — read at an index: the leading coordinate says which of the two, the other coordinates are kept.
-/
import Idealize.ShloMosaic.Lib.Pipeline.Value
import Idealize.ShloMosaic.Lib.ValueIdx

namespace Cert.Lib.StackTwo

open Idealize.ShloMosaic Idealize.ShloMosaic.ValueIdx

variable {α : Type}

/-- At leading coordinate 0 the stack reads its first piece. -/
theorem concat_first {a b : Nat} (x₁ x₂ : (⟨3, ![1, a, b]⟩ : Shape).Idx → α)
    (h : Shape.Concatenates [(⟨3, ![1, a, b]⟩ : Shape), ⟨3, ![1, a, b]⟩] ⟨3, ![2, a, b]⟩ 0) (i : Fin a) (j : Fin b) :
    concatenate ⟨3, ![2, a, b]⟩ 0 [⟨⟨3, ![1, a, b]⟩, x₁⟩, ⟨⟨3, ![1, a, b]⟩, x₂⟩] h (ix3 (0 : Fin 2) i j)
      = x₁ (ix3 (0 : Fin 1) i j) :=
  concatenate_pair_apply_left 0 x₁ x₂ h (ix3 (0 : Fin 2) i j) rfl (ix3 (0 : Fin 1) i j) (fun c => by
    match c with
    | ⟨0, _⟩ => rfl
    | ⟨1, _⟩ => rfl
    | ⟨2, _⟩ => rfl)

/-- At leading coordinate 1 the stack reads its second piece (whose own leading coordinate is 0). -/
theorem concat_second {a b : Nat} (x₁ x₂ : (⟨3, ![1, a, b]⟩ : Shape).Idx → α)
    (h : Shape.Concatenates [(⟨3, ![1, a, b]⟩ : Shape), ⟨3, ![1, a, b]⟩] ⟨3, ![2, a, b]⟩ 0) (i : Fin a) (j : Fin b) :
    concatenate ⟨3, ![2, a, b]⟩ 0 [⟨⟨3, ![1, a, b]⟩, x₁⟩, ⟨⟨3, ![1, a, b]⟩, x₂⟩] h (ix3 (1 : Fin 2) i j)
      = x₂ (ix3 (0 : Fin 1) i j) :=
  concatenate_pair_apply_right 0 x₁ x₂ h (ix3 (1 : Fin 2) i j) rfl rfl (ix3 (0 : Fin 1) i j) (fun c hc => by
    match c with
    | ⟨0, _⟩ => exact absurd rfl hc
    | ⟨1, _⟩ => rfl
    | ⟨2, _⟩ => rfl) rfl

end Cert.Lib.StackTwo
-- ==== Proof.RefValue.lean ====
/-
  The reference program's result is the layer, entry by entry.

  The reference cuts each relation's adjacency matrix and weight matrix out of the stacked arguments (a slice of the
  leading axis, then the unit axis dropped), forms (A[r] · X) · W[r] by two plain matrix products, stacks the two
  results along a new leading axis and sums over that axis from an initial value 0, adds the bias laid along every row,
  and takes the maximum with 0. Read at row p and output feature o:

    • relation r's adjacency operand at (p, k) is A (r, p, k), its weight operand at (j, o) is W (r, j, o);
    • a plain product at an entry is the sum over the contracted coordinate, so relation r contributes
      Σ_j (Σ_k A (r, p, k) · X (k, j)) · W (r, j, o);
    • the sum over the stacking axis is 0 + (term 0 + term 1), and 0 + x = x on the extended reals;
    • the bias at (p, o) is b (o).

  That is the specification's `layer`. Only `0 + x = x` is used of the arithmetic, so nothing is asked of the inputs.
-/
import proofs.«112092_g83150566851288_cont_9to1c4b_27_5_alg».proof.Proof.Gen.ReferenceIdeal.Read
import proofs.«112092_g83150566851288_cont_9to1c4b_27_5_alg».proof.Proof.Spec
import proofs.«112092_g83150566851288_cont_9to1c4b_27_5_alg».proof.Proof.LibContractPlain
import proofs.«112092_g83150566851288_cont_9to1c4b_27_5_alg».proof.Proof.LibStackTwo
import Idealize.ShloMosaic.Lib.ValueLayout

noncomputable section

namespace Cert.ReferenceIdeal.RefValue

open Cert.ReferenceIdeal Cert.ReferenceIdeal.Gen Cert.ReferenceIdeal.Read
open Idealize.ShloMosaic Idealize.ShloMosaic.ValueIdx
open Cert.Rgcn Cert.Lib

variable (X : FVec Ideal S10000x128 .f32) (A : FVec Ideal S2x10000x10000 .f32) (W : FVec Ideal S2x128x128 .f32)
  (b : FVec Ideal S128 .f32)

/-! ## Relation 0 -/

/-- Relation 0's adjacency matrix at (p, k) is A (0, p, k). -/
theorem adj0_apply (p k : Fin 10000) : val_main_v1 (F := Ideal) A (ix2 p k) = A (ix3 (0 : Fin 2) p k) := by
  unfold val_main_v1
  refine (shapeCast_1ab_ab_apply _ _ p k).trans ?_
  rw [val_main_v0_apply]
  exact congrArg A (funext fun a => Fin.ext (by match a with | ⟨0, _⟩ => rfl | ⟨1, _⟩ => rfl | ⟨2, _⟩ => rfl))

/-- Relation 0's weight matrix at (j, o) is W (0, j, o). -/
theorem wgt0_apply (j o : Fin 128) : val_main_v4 (F := Ideal) W (ix2 j o) = W (ix3 (0 : Fin 2) j o) := by
  unfold val_main_v4
  refine (shapeCast_1ab_ab_apply _ _ j o).trans ?_
  rw [val_main_v3_apply]
  exact congrArg W (funext fun a => Fin.ext (by match a with | ⟨0, _⟩ => rfl | ⟨1, _⟩ => rfl | ⟨2, _⟩ => rfl))

/-- Relation 0's message A[0] · X at (p, j). -/
theorem msg0_apply (p : Fin 10000) (j : Fin 128) :
    val_main_v2 (F := Ideal) X A (ix2 p j) = ∑ k : Fin 10000, A (ix3 (0 : Fin 2) p k) * X (ix2 k j) := by
  unfold val_main_v2
  refine (ContractPlain.hostDot_apply dot_S10000x10000_S10000x128_S10000x128_1_0_0_1_n_n rfl none _ _ p j).trans ?_
  exact Finset.sum_congr rfl fun k _ => by rw [adj0_apply]

/-- Relation 0's output (A[0] · X) · W[0] at (p, o) is the specification's term. -/
theorem rel0_apply (p : Fin 10000) (o : Fin 128) : val_main_v5 (F := Ideal) X A W (ix2 p o) = relTerm A X W 0 p o := by
  unfold val_main_v5
  refine (ContractPlain.hostDot_apply dot_S10000x128_S128x128_S10000x128_1_0_0_1_n_n rfl none _ _ p o).trans ?_
  unfold relTerm
  exact Finset.sum_congr rfl fun j _ => by rw [msg0_apply, wgt0_apply]

/-! ## Relation 1 -/

/-- Relation 1's adjacency matrix at (p, k) is A (1, p, k). -/
theorem adj1_apply (p k : Fin 10000) : val_main_v7 (F := Ideal) A (ix2 p k) = A (ix3 (1 : Fin 2) p k) := by
  unfold val_main_v7
  refine (shapeCast_1ab_ab_apply _ _ p k).trans ?_
  rw [val_main_v6_apply]
  exact congrArg A (funext fun a => Fin.ext (by match a with | ⟨0, _⟩ => rfl | ⟨1, _⟩ => rfl | ⟨2, _⟩ => rfl))

/-- Relation 1's weight matrix at (j, o) is W (1, j, o). -/
theorem wgt1_apply (j o : Fin 128) : val_main_v10 (F := Ideal) W (ix2 j o) = W (ix3 (1 : Fin 2) j o) := by
  unfold val_main_v10
  refine (shapeCast_1ab_ab_apply _ _ j o).trans ?_
  rw [val_main_v9_apply]
  exact congrArg W (funext fun a => Fin.ext (by match a with | ⟨0, _⟩ => rfl | ⟨1, _⟩ => rfl | ⟨2, _⟩ => rfl))

/-- Relation 1's message A[1] · X at (p, j). -/
theorem msg1_apply (p : Fin 10000) (j : Fin 128) :
    val_main_v8 (F := Ideal) X A (ix2 p j) = ∑ k : Fin 10000, A (ix3 (1 : Fin 2) p k) * X (ix2 k j) := by
  unfold val_main_v8
  refine (ContractPlain.hostDot_apply dot_S10000x10000_S10000x128_S10000x128_1_0_0_1_n_n rfl none _ _ p j).trans ?_
  exact Finset.sum_congr rfl fun k _ => by rw [adj1_apply]

/-- Relation 1's output (A[1] · X) · W[1] at (p, o) is the specification's term. -/
theorem rel1_apply (p : Fin 10000) (o : Fin 128) : val_main_v11 (F := Ideal) X A W (ix2 p o) = relTerm A X W 1 p o := by
  unfold val_main_v11
  refine (ContractPlain.hostDot_apply dot_S10000x128_S128x128_S10000x128_1_0_0_1_n_n rfl none _ _ p o).trans ?_
  unfold relTerm
  exact Finset.sum_congr rfl fun j _ => by rw [msg1_apply, wgt1_apply]

/-! ## The stack of the two outputs, and its sum over the stacking axis -/

/-- The stack at leading coordinate 0 is relation 0's output. -/
theorem stack0_apply (p : Fin 10000) (o : Fin 128) :
    val_main_v14 (F := Ideal) X A W (ix3 (0 : Fin 2) p o) = relTerm A X W 0 p o := by
  unfold val_main_v14
  refine (StackTwo.concat_first _ _ _ p o).trans ?_
  rw [val_main_v12_apply]
  exact (congrArg (val_main_v5 (F := Ideal) X A W)
    (funext fun a => Fin.ext (by match a with | ⟨0, _⟩ => rfl | ⟨1, _⟩ => rfl))).trans (rel0_apply X A W p o)

/-- The stack at leading coordinate 1 is relation 1's output. -/
theorem stack1_apply (p : Fin 10000) (o : Fin 128) :
    val_main_v14 (F := Ideal) X A W (ix3 (1 : Fin 2) p o) = relTerm A X W 1 p o := by
  unfold val_main_v14
  refine (StackTwo.concat_second _ _ _ p o).trans ?_
  rw [val_main_v13_apply]
  exact (congrArg (val_main_v11 (F := Ideal) X A W)
    (funext fun a => Fin.ext (by match a with | ⟨0, _⟩ => rfl | ⟨1, _⟩ => rfl))).trans (rel1_apply X A W p o)

/-- The sum over the stacking axis, from the initial value 0, is the sum of the two relations' terms. -/
theorem relSum_apply (p : Fin 10000) (o : Fin 128) :
    val_main_v15 (F := Ideal) X A W (ix2 p o) = relTerm A X W 0 p o + relTerm A X W 1 p o := by
  have e0 : idx_main_v15 (ix2 p o) (0 : Fin 2) = ix3 (0 : Fin 2) p o :=
    funext fun a => Fin.ext (by match a with | ⟨0, _⟩ => rfl | ⟨1, _⟩ => rfl | ⟨2, _⟩ => rfl)
  have e1 : idx_main_v15 (ix2 p o) (1 : Fin 2) = ix3 (1 : Fin 2) p o :=
    funext fun a => Fin.ext (by match a with | ⟨0, _⟩ => rfl | ⟨1, _⟩ => rfl | ⟨2, _⟩ => rfl)
  rw [val_main_v15_apply, Fin.sum_univ_two, e0, e1, stack0_apply, stack1_apply, val_main_cst_apply]
  show Ideal.ofBits .f32 0x00000000#32 + _ = _
  rw [Ideal.ofBits_zero_f32, zero_add]

/-! ## The bias, and the result -/

/-- The bias laid along every row, at (p, o), is b (o). -/
theorem bias_apply (p : Fin 10000) (o : Fin 128) : val_main_v17 (F := Ideal) b (ix2 p o) = b (ix1 o) := by
  rw [val_main_v17_apply, val_main_v16_apply]
  exact congrArg b (funext fun a => Fin.ext (by match a with | ⟨0, _⟩ => rfl))

/-- THE REFERENCE'S RESULT is the layer. -/
theorem result_eq : val_main_v19 (F := Ideal) X A W b = layer X A W b := by
  funext i
  obtain ⟨p, o, rfl⟩ : ∃ (p : Fin 10000) (o : Fin 128), i = ix2 p o := ⟨i 0, i 1, eq_ix2 i⟩
  rw [val_main_v19_apply, val_main_v18_apply, relSum_apply, bias_apply, val_main_call0_v0_apply,
    val_main_call0_cst_apply, layer_ix2]
  show max (_ + _ + _) (Ideal.ofBits .f32 0x00000000#32) = _
  rw [Ideal.ofBits_zero_f32]
  rfl

end Cert.ReferenceIdeal.RefValue

end
-- ==== Proof.BlockValue.lean ====
/-
  What the kernel body leaves in its output block, entry by entry.

  At one grid point the body holds a block B : [2, 80, 10000] of 80 rows of both adjacency matrices, the whole node
  features X : [10000, 128], both weight matrices W : [2, 128, 128] and the bias as one row β : [1, 128]. It loads the
  two slabs B[0], B[1] and W[0], W[1] (a slab is the rectangle of leading coordinate r with its unit axis dropped), forms
  (B[r] · X) · W[r] by two products on the matrix unit, each accumulated into a splat of zeros, adds the two, adds the
  bias row broadcast down the 80 rows, and stores the maximum with 0 over the whole output block. Read at row p of the
  block and output feature o this is

      max ( Σ_j (Σ_k B (0, p, k) · X (k, j)) · W (0, j, o) + Σ_j (Σ_k B (1, p, k) · X (k, j)) · W (1, j, o) + β (0, o), 0 ),

  the specification's `entry` over the block's rows. A product into a zero accumulator contributes `0 + ·`, and a
  format's zero word is the extended real 0; nothing else of the arithmetic is used.
-/
import proofs.«112092_g83150566851288_cont_9to1c4b_27_5_alg».proof.Proof.Gen.KernelIdeal.Frame
import proofs.«112092_g83150566851288_cont_9to1c4b_27_5_alg».proof.Proof.Spec
import proofs.«112092_g83150566851288_cont_9to1c4b_27_5_alg».proof.Proof.LibContractPlain
import Idealize.ShloMosaic.Lib.ValueLayout

noncomputable section

namespace Cert.KernelIdeal.BlockValue

open Cert.KernelIdeal Cert.KernelIdeal.Gen
open Idealize.ShloMosaic Idealize.ShloMosaic.ValueIdx
open Cert.Rgcn Cert.Lib

/-! ## The body's operations at an entry -/

/-- A slab of 80 adjacency rows times the node features, at (p, j). -/
theorem msg_apply (v : FVec Ideal S1x80x10000 .f32) (h : S1x80x10000.ShapeCasts S80x10000) (x : FVec Ideal S10000x128 .f32)
    (p : Fin 80) (j : Fin 128) :
    matmul dot_S80x10000_S10000x128_S80x128_1_0_0_1_n_n none (shapeCast S80x10000 v h) x
        (constant (F := Ideal) S80x128 .f32 0x00000000#32) (ix2 p j)
      = ∑ k : Fin 10000, v (ix3 (0 : Fin 1) p k) * x (ix2 k j) := by
  refine (ContractPlain.matmulZero_apply dot_S80x10000_S10000x128_S80x128_1_0_0_1_n_n rfl none _ _ p j).trans ?_
  exact Finset.sum_congr rfl fun k _ => by rw [shapeCast_1ab_ab_apply]

/-- A message block times a weight slab, at (p, o). -/
theorem out_apply (M : FVec Ideal S80x128 .f32) (w : FVec Ideal S1x128x128 .f32) (h : S1x128x128.ShapeCasts S128x128)
    (p : Fin 80) (o : Fin 128) :
    matmul dot_S80x128_S128x128_S80x128_1_0_0_1_n_n none M (shapeCast S128x128 w h)
        (constant (F := Ideal) S80x128 .f32 0x00000000#32) (ix2 p o)
      = ∑ j : Fin 128, M (ix2 p j) * w (ix3 (0 : Fin 1) j o) := by
  refine (ContractPlain.matmulZero_apply dot_S80x128_S128x128_S80x128_1_0_0_1_n_n rfl none _ _ p o).trans ?_
  exact Finset.sum_congr rfl fun j _ => by rw [shapeCast_1ab_ab_apply]

/-- The bias row broadcast down the block's rows, at (p, o), is the row at o. -/
theorem biasRow_apply (v : FVec Ideal S1x128 .f32) (h1 : S1x128.ShapeCasts S1x128) (h2 : S1x128.Broadcasts S80x128)
    (p : Fin 80) (o : Fin 128) :
    broadcastTo S80x128 (shapeCast S1x128 v h1) h2 (ix2 p o) = v (ix2 (0 : Fin 1) o) := by
  rw [broadcastTo_1b_ab_apply, shapeCast_self]

/-- THE PAYLOAD AT AN ENTRY, over the seven loaded values. -/
theorem pay_apply (v0 v4 : FVec Ideal S1x80x10000 .f32) (v2 v6 : FVec Ideal S10000x128 .f32)
    (v8 v11 : FVec Ideal S1x128x128 .f32) (v15 : FVec Ideal S1x128 .f32) (p : Fin 80) (o : Fin 128) :
    k0_pay1 (F := Ideal) v0 v2 v4 v6 v8 v11 v15 (ix2 p o)
      = max ((∑ j : Fin 128, (∑ k : Fin 10000, v0 (ix3 (0 : Fin 1) p k) * v2 (ix2 k j)) * v8 (ix3 (0 : Fin 1) j o))
            + (∑ j : Fin 128, (∑ k : Fin 10000, v4 (ix3 (0 : Fin 1) p k) * v6 (ix2 k j)) * v11 (ix3 (0 : Fin 1) j o))
            + v15 (ix2 (0 : Fin 1) o)) 0 := by
  unfold k0_pay1
  simp only [maximumf_apply, addf_apply, broadcast_apply, out_apply, msg_apply, biasRow_apply]
  show max _ (Ideal.ofBits .f32 0x00000000#32) = _
  rw [Ideal.ofBits_zero_f32]

/-! ## The loads: a slab of a stacked block -/

theorem zeros2 : (![0, 0] : Fin 2 → Nat) = fun _ => 0 := funext fun a => by fin_cases a <;> rfl

/-- The first load reads adjacency slab 0 of the block. -/
theorem ldAdj0 (x0 : FVec Ideal S2x80x10000 .f32) (p : Fin 80) (k : Fin 10000) :
    View.ld (Val := Elt Ideal) (e' := EltTy.f32) x0 r0_0 (ix3 (0 : Fin 1) p k) = x0 (ix3 (0 : Fin 2) p k) :=
  congrArg x0 (funext fun a => Fin.ext (by
    match a with
    | ⟨0, _⟩ => rfl
    | ⟨1, _⟩ => show 0 + 1 * p.val = p.val; omega
    | ⟨2, _⟩ => show 0 + 1 * k.val = k.val; omega))

/-- The third load reads adjacency slab 1. -/
theorem ldAdj1 (x0 : FVec Ideal S2x80x10000 .f32) (p : Fin 80) (k : Fin 10000) :
    View.ld (Val := Elt Ideal) (e' := EltTy.f32) x0 r0_2 (ix3 (0 : Fin 1) p k) = x0 (ix3 (1 : Fin 2) p k) :=
  congrArg x0 (funext fun a => Fin.ext (by
    match a with
    | ⟨0, _⟩ => rfl
    | ⟨1, _⟩ => show 0 + 1 * p.val = p.val; omega
    | ⟨2, _⟩ => show 0 + 1 * k.val = k.val; omega))

/-- Weight slab 0. -/
theorem ldWgt0 (x2 : FVec Ideal S2x128x128 .f32) (j o : Fin 128) :
    View.ld (Val := Elt Ideal) (e' := EltTy.f32) x2 r0_3 (ix3 (0 : Fin 1) j o) = x2 (ix3 (0 : Fin 2) j o) :=
  congrArg x2 (funext fun a => Fin.ext (by
    match a with
    | ⟨0, _⟩ => rfl
    | ⟨1, _⟩ => show 0 + 1 * j.val = j.val; omega
    | ⟨2, _⟩ => show 0 + 1 * o.val = o.val; omega))

/-- Weight slab 1. -/
theorem ldWgt1 (x2 : FVec Ideal S2x128x128 .f32) (j o : Fin 128) :
    View.ld (Val := Elt Ideal) (e' := EltTy.f32) x2 r0_4 (ix3 (0 : Fin 1) j o) = x2 (ix3 (1 : Fin 2) j o) :=
  congrArg x2 (funext fun a => Fin.ext (by
    match a with
    | ⟨0, _⟩ => rfl
    | ⟨1, _⟩ => show 0 + 1 * j.val = j.val; omega
    | ⟨2, _⟩ => show 0 + 1 * o.val = o.val; omega))

/-! ## The output block -/

/-- THE OUTPUT BLOCK AT AN ENTRY is the specification's entry over the block's rows, the bias read off the bias row. -/
theorem out_entry (x0 : FVec Ideal S2x80x10000 .f32) (x1 : FVec Ideal S10000x128 .f32) (x2 : FVec Ideal S2x128x128 .f32)
    (x3 : FVec Ideal S1x128 .f32) (p : Fin 80) (o : Fin 128) :
    out0_4 (F := Ideal) x0 x1 x2 x3 (ix2 p o) = entry x0 x1 x2 (x3 (ix2 (0 : Fin 1) o)) p o := by
  unfold out0_4
  rw [View.canon_unit_zero zeros2, View.ld_unit_zero (S := S10000x128) zeros2, View.ld_unit_zero (S := S1x128) zeros2,
    pay_apply]
  unfold entry relTerm
  refine congrArg (fun z => max z 0) (congrArg (· + x3 (ix2 (0 : Fin 1) o)) (congrArg₂ (· + ·) ?_ ?_))
  · exact Finset.sum_congr rfl fun j _ => congrArg₂ (· * ·)
      (Finset.sum_congr rfl fun k _ => congrArg (· * x1 (ix2 k j)) (ldAdj0 x0 p k)) (ldWgt0 x2 j o)
  · exact Finset.sum_congr rfl fun j _ => congrArg₂ (· * ·)
      (Finset.sum_congr rfl fun k _ => congrArg (· * x1 (ix2 k j)) (ldAdj1 x0 p k)) (ldWgt1 x2 j o)

end Cert.KernelIdeal.BlockValue

end
-- ==== Proof.KernelValue.lean ====
/-
  From the output blocks to the output array: after the kernel's run the result array is the layer of the arguments.

  The grid has 125 points. At point t the adjacency window holds rows 80·t … 80·t + 79 of both adjacency matrices (block
  index (0, t, 0) of blocks [2, 80, 10000]); the node features, the weights and the bias row are whole-array windows at
  block index zero; the output window writes back rows 80·t … 80·t + 79 of the result (block index (t, 0) of blocks
  [80, 128]). The bias row is the bias vector with a unit axis put in front, written by the one host operation before
  the launch.

  So entry (p, o) of the block written back at point t is the layer's entry at array row 80·t + p and column o
  (`BlockValue.out_entry` over the block's rows, which are the array's rows 80·t + p), and since the 125 blocks cover
  all 10000 rows (row r lies in block r / 80), the whole array is the layer.
-/
import proofs.«112092_g83150566851288_cont_9to1c4b_27_5_alg».proof.Proof.Gen.KernelIdeal.Value
import proofs.«112092_g83150566851288_cont_9to1c4b_27_5_alg».proof.Proof.BlockValue
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx
open Cert.Rgcn

variable (m : (ℓ : Loc nD τ sig) → Buf (Elt Ideal) ℓ) (ρ : Dev nD → PrngReg)

/-! ## The windows' block indices over the grid -/

/-- The printed index maps, decided over the 125 points: the adjacency window and the output window move down the rows
    with the point, every other window stays at block zero. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 125 := by
  have h := t.isLt
  have hN : cfg0.N = 125 := N_0
  omega

/-- Row p of the block at point t is row 80·t + p of the array. -/
def row (t : Fin cfg0.N) (p : Fin 80) : Fin 10000 := ⟨t.val * 80 + p.val, by
  have := point_lt t; have := p.isLt; omega⟩

/-! ## The input windows' blocks, read where the output block's rows say -/

/-- The adjacency block at point t, at (r, p, k), is the adjacency array at (r, 80·t + p, k). -/
theorem blkAdj (c : Dev nD) (t : Fin cfg0.N) (r : Fin 2) (p : Fin 80) (k : Fin 10000) :
    iblk m c 0 t (ix3 r p k) = V m c main_arg1 (ix3 r (row t p) k) := by
  show V m c main_arg1 (((cfg0.win 0).blk t).view.emb (ix3 r p k)) = _
  refine congrArg _ (funext fun a => Fin.ext ?_)
  obtain ⟨e0, e1, e2, -⟩ := idx_facts t
  match a with
  | ⟨0, _⟩ => show win0_0.index t (0 : Fin 3) * 2 + 1 * r.val = r.val; omega
  | ⟨1, _⟩ => show win0_0.index t (1 : Fin 3) * 80 + 1 * p.val = t.val * 80 + p.val; omega
  | ⟨2, _⟩ => show win0_0.index t (2 : Fin 3) * 10000 + 1 * k.val = k.val; omega

/-- The node-features block is the whole array. -/
theorem blkFeat (c : Dev nD) (t : Fin cfg0.N) (k : Fin 10000) (j : Fin 128) :
    iblk m c 1 t (ix2 k j) = V m c main_arg0 (ix2 k j) := by
  show V m c main_arg0 (((cfg0.win 1).blk t).view.emb (ix2 k j)) = _
  refine congrArg _ (funext fun a => Fin.ext ?_)
  obtain ⟨-, -, -, e0, e1, -⟩ := idx_facts t
  match a with
  | ⟨0, _⟩ => show win0_1.index t (0 : Fin 2) * 10000 + 1 * k.val = k.val; omega
  | ⟨1, _⟩ => show win0_1.index t (1 : Fin 2) * 128 + 1 * j.val = j.val; omega

/-- The weights block is the whole array. -/
theorem blkWgt (c : Dev nD) (t : Fin cfg0.N) (r : Fin 2) (j o : Fin 128) :
    iblk m c 2 t (ix3 r j o) = V m c main_arg2 (ix3 r j o) := by
  show V m c main_arg2 (((cfg0.win 2).blk t).view.emb (ix3 r j o)) = _
  refine congrArg _ (funext fun a => Fin.ext ?_)
  obtain ⟨-, -, -, -, -, e0, e1, e2, -⟩ := idx_facts t
  match a with
  | ⟨0, _⟩ => show win0_2.index t (0 : Fin 3) * 2 + 1 * r.val = r.val; omega
  | ⟨1, _⟩ => show win0_2.index t (1 : Fin 3) * 128 + 1 * j.val = j.val; omega
  | ⟨2, _⟩ => show win0_2.index t (2 : Fin 3) * 128 + 1 * o.val = o.val; omega

/-- The bias row as the launch finds it: the bias vector with a unit axis put in front (the host operation before
    the launch). -/
theorem biasRow_eq (c : Dev nD) :
    (V m c main_v0 : S1x128.Idx → EReal) = shapeCast S1x128 (m ((c : Thread nD τ).loc main_arg3)) shapeCasts_S128_S1x128 := by
  dsimp only [V, hostOps0]
  after_results
  rfl

/-- The bias block at (0, o) is the bias vector at o. -/
theorem blkBias (c : Dev nD) (t : Fin cfg0.N) (o : Fin 128) :
    iblk m c 3 t (ix2 (0 : Fin 1) o) = m ((c : Thread nD τ).loc main_arg3) (ix1 o) := by
  show V m c main_v0 (((cfg0.win 3).blk t).view.emb (ix2 (0 : Fin 1) o)) = _
  have he : ((cfg0.win 3).blk t).view.emb (ix2 (0 : Fin 1) o) = ix2 (0 : Fin 1) o := by
    refine funext fun a => Fin.ext ?_
    obtain ⟨-, -, -, -, -, -, -, -, e0, e1, -⟩ := idx_facts t
    match a with
    | ⟨0, _⟩ => show win0_3.index t (0 : Fin 2) * 1 + 1 * 0 = 0; omega
    | ⟨1, _⟩ => show win0_3.index t (1 : Fin 2) * 128 + 1 * o.val = o.val; omega
  rw [he, biasRow_eq]
  exact shapeCast_a_1a_apply _ _ (0 : Fin 1) o

/-- Where entry (p, o) of the output block at point t sits in the result array: row 80·t + p, column o. -/
theorem outEmb (t : Fin cfg0.N) (p : Fin 80) (o : Fin 128) :
    ((cfg0.win 4).blk t).view.emb (ix2 p o) = ix2 (row t p) o := by
  refine funext fun a => Fin.ext ?_
  obtain ⟨-, -, -, -, -, -, -, -, -, -, e0, e1⟩ := idx_facts t
  match a with
  | ⟨0, _⟩ => show win0_4.index t (0 : Fin 2) * 80 + 1 * p.val = t.val * 80 + p.val; omega
  | ⟨1, _⟩ => show win0_4.index t (1 : Fin 2) * 128 + 1 * o.val = o.val; omega

/-! ## What a point writes back -/

/-- The body's output block over any four input blocks that are the stated parts of arrays X, A, W, b, at entry (p, o),
    is the layer at row q, column o, when the adjacency block's row p is the array's row q. -/
theorem point_eq (x0 : FVec Ideal S2x80x10000 .f32) (x1 : FVec Ideal S10000x128 .f32) (x2 : FVec Ideal S2x128x128 .f32)
    (x3 : FVec Ideal S1x128 .f32) (X : FVec Ideal S10000x128 .f32) (A : FVec Ideal S2x10000x10000 .f32)
    (W : FVec Ideal S2x128x128 .f32) (b : FVec Ideal S128 .f32) (p : Fin 80) (q : Fin 10000) (o : Fin 128)
    (hA : ∀ (r : Fin 2) (k : Fin 10000), x0 (ix3 r p k) = A (ix3 r q k))
    (hX : ∀ (k : Fin 10000) (j : Fin 128), x1 (ix2 k j) = X (ix2 k j))
    (hW : ∀ (r : Fin 2) (j o : Fin 128), x2 (ix3 r j o) = W (ix3 r j o))
    (hb : ∀ o : Fin 128, x3 (ix2 (0 : Fin 1) o) = b (ix1 o)) :
    out0_4 (F := Ideal) x0 x1 x2 x3 (ix2 p o) = layer X A W b (ix2 q o) := by
  rw [BlockValue.out_entry, layer_ix2, hb]
  unfold entry relTerm
  simp only [hA, hX, hW]

/-- WHAT POINT t WRITES BACK is block t of the layer of the arrays as the launch finds them. -/
theorem flushed_eq (c : Dev nD) (t : Fin cfg0.N) :
    (dats m 0 c).flushed 4 t = ((cfg0.win 4).blk t).view.read (Elt Ideal)
      (layer (V m c main_arg0) (V m c main_arg1) (V m c main_arg2) (m ((c : Thread nD τ).loc main_arg3))) := by
  rw [Value.flushed4]
  funext y
  obtain ⟨p, o, rfl⟩ : ∃ (p : Fin 80) (o : Fin 128), y = ix2 p o := ⟨y 0, y 1, eq_ix2 y⟩
  show out0_4 (iblk m c 0 t) (iblk m c 1 t) (iblk m c 2 t) (iblk m c 3 t) (ix2 p o)
    = layer (V m c main_arg0) (V m c main_arg1) (V m c main_arg2) (m ((c : Thread nD τ).loc main_arg3))
        (((cfg0.win 4).blk t).view.emb (ix2 p o))
  rw [outEmb t p o]
  exact point_eq _ _ _ _ _ _ _ _ p (row t p) o (fun r k => blkAdj m c t r p k) (fun k j => blkFeat m c t k j)
    (fun r j o => blkWgt m c t r j o) (fun o => blkBias m c t o)

/-! ## The cover, the array, the run -/

/-- An index of the result array is in point t's block iff each coordinate is in the block's range on its axis. -/
theorem mem_blk (t : Fin cfg0.N) (i : S10000x128.Idx) :
    i ∈ ((cfg0.win 4).blk t).view.set ↔ ∀ a : Fin 2, win0_4.index t a * S80x128.size a ≤ (i a).val
      ∧ (i a).val < win0_4.index t a * S80x128.size a + S80x128.size a := by
  show i ∈ ((View.whole main_v1).slice (win0_4.rect t)).set ↔ _
  rw [View.set_slice_whole, Rect.mem_set_unit]
  exact Iff.rfl

/-- Every index of the result array is in some point's block: row r is in block r / 80. -/
theorem cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 125 := N_0
  obtain ⟨t, ht⟩ : ∃ t : Fin cfg0.N, t.val = (i 0).val / 80 := ⟨⟨(i 0).val / 80, by omega⟩, rfl⟩
  refine ⟨t, flush0_4 t, ?_⟩
  rw [mem_blk]
  obtain ⟨-, -, -, -, -, -, -, -, -, -, e0, e1⟩ := idx_facts t
  intro a
  match a with
  | ⟨0, _⟩ =>
    show win0_4.index t (0 : Fin 2) * 80 ≤ (i 0).val ∧ (i 0).val < win0_4.index t (0 : Fin 2) * 80 + 80
    omega
  | ⟨1, _⟩ =>
    show win0_4.index t (1 : Fin 2) * 128 ≤ (i 1).val ∧ (i 1).val < win0_4.index t (1 : Fin 2) * 128 + 128
    omega

/-- THE RESULT ARRAY after the run is the layer of the argument arrays. -/
theorem final (c : Dev nD) :
    (dats m 0 c).arrAt 4 cfg0.N = layer (m ((c : Thread nD τ).loc main_arg0)) (m ((c : Thread nD τ).loc main_arg1))
      (m ((c : Thread nD τ).loc main_arg2)) (m ((c : Thread nD τ).loc main_arg3)) := by
  refine ((dats m 0 c).arrAt_eq_of_cover 4 _ (fun t _ => flushed_eq m c t) cover).trans ?_
  rw [V_main_arg0, V_main_arg1, V_main_arg2]

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = layer (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.lean ====
/-
  A relational graph-convolution layer, relu ( Σ_r (A[r] · X) · W[r] + b ) over two relations, on 10000 nodes with 128
  input and 128 output features: a kernel that computes it 80 rows at a time against the plain array program.

  THE TWO PROGRAMS. The kernel runs over a grid of 125 points. At point t it holds rows 80·t … 80·t + 79 of both
  adjacency matrices, all of X, both weight matrices and the bias as a row; it forms (A[r]-rows · X) · W[r] for r = 0, 1
  on the matrix unit, each product accumulated into zeros, adds the two, adds the bias row down the 80 rows, takes the
  maximum with 0 and writes rows 80·t … 80·t + 79 of the result. The reference cuts A[r] and W[r] out of the stacked
  arguments, forms the same two double products over all 10000 rows, stacks them, sums over the stacking axis from 0,
  adds the bias along every row and takes the maximum with 0.

  WHY THEY AGREE on the extended reals. A matrix product at an entry is the finite sum of the products over the
  contracted coordinate, whether it is the matrix unit's into a zero accumulator or the host's; so both programs put at
  row p and column o

      max ( Σ_j (Σ_k A[0, p, k] · X[k, j]) · W[0, j, o]  +  Σ_j (Σ_k A[1, p, k] · X[k, j]) · W[1, j, o]  +  b[o] ,  0 ),

  the kernel because entry (p', o) of its block at point t depends on row 80·t + p' of the adjacency matrices only and
  the 125 blocks of 80 rows cover the 10000 rows, the reference after `0 + x = x` for the stacking sum's initial value.
  No sum is regrouped and no factor is moved across a sum, so the equality holds at the infinities too and the
  precondition (finite inputs) is not used. The idealization rewrote nothing of the kernel, so there is nothing to
  preserve beyond the frames; the frames are the generated ones, the reference's being its run with the result dropped.

  Modules: Spec (the layer as one function), RefValue (the reference's result is it), BlockValue (the body's output
  block at an entry), KernelValue (from the blocks to the array, and the kernel's run read), and two general lemma files
  (a plain matrix product at an entry; a stack of two arrays at an index).
-/
import proofs.«112092_g83150566851288_cont_9to1c4b_27_5_alg».proof.Defs
import proofs.«112092_g83150566851288_cont_9to1c4b_27_5_alg».proof.Proof.Gen.Kernel
import proofs.«112092_g83150566851288_cont_9to1c4b_27_5_alg».proof.Proof.Gen.Kernel.Skeleton
import proofs.«112092_g83150566851288_cont_9to1c4b_27_5_alg».proof.Proof.Gen.Kernel.Launch
import proofs.«112092_g83150566851288_cont_9to1c4b_27_5_alg».proof.Proof.Gen.Kernel.Points
import proofs.«112092_g83150566851288_cont_9to1c4b_27_5_alg».proof.Proof.Gen.Kernel.Frame
import proofs.«112092_g83150566851288_cont_9to1c4b_27_5_alg».proof.Proof.Gen.KernelIdeal
import proofs.«112092_g83150566851288_cont_9to1c4b_27_5_alg».proof.Proof.Gen.KernelIdeal.Skeleton
import proofs.«112092_g83150566851288_cont_9to1c4b_27_5_alg».proof.Proof.Gen.KernelIdeal.Launch
import proofs.«112092_g83150566851288_cont_9to1c4b_27_5_alg».proof.Proof.Gen.KernelIdeal.Points
import proofs.«112092_g83150566851288_cont_9to1c4b_27_5_alg».proof.Proof.Gen.KernelIdeal.Frame
import proofs.«112092_g83150566851288_cont_9to1c4b_27_5_alg».proof.Proof.Gen.ReferenceIdeal
import proofs.«112092_g83150566851288_cont_9to1c4b_27_5_alg».proof.Proof.Gen.Pre_finite_inputs
import proofs.«112092_g83150566851288_cont_9to1c4b_27_5_alg».proof.Proof.Gen.KernelIdeal.Value
import proofs.«112092_g83150566851288_cont_9to1c4b_27_5_alg».proof.Proof.Gen.ReferenceIdeal.Run
import proofs.«112092_g83150566851288_cont_9to1c4b_27_5_alg».proof.Proof.Gen.ReferenceIdeal.Read
import proofs.«112092_g83150566851288_cont_9to1c4b_27_5_alg».proof.Proof.RefValue
import proofs.«112092_g83150566851288_cont_9to1c4b_27_5_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the four arguments both programs end with the layer of those arguments as their
    result: the kernel by its run read block by block, the reference by its run read operation by operation. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
